-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x50 : Shape := ⟨2, ![1024, 50]⟩
abbrev S4096x64 : Shape := ⟨2, ![4096, 64]⟩
abbrev S16384x64 : Shape := ⟨2, ![16384, 64]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : IVec S1024 32) (main_arg1 : IVec S1024x50 32) (main_arg2 : FVec F S1024x50 .f32) (main_arg3 : FVec F S4096x64 .f32) (main_arg4 : FVec F S16384x64 .f32) : IVec S_ 1 :=
  let main_v0 : FVec F S1024x50 .f32 := Host.absf main_arg2
  let main_cst : FVec F S_ .f32 := constant S_ .f32 0x7F800000#32
  let main_v1 : FVec F S1024x50 .f32 := broadcastInDim S1024x50 ![] bcast_S_S1024x50 main_cst
  let main_v2 : IVec S1024x50 1 := cmpf .olt main_v0 main_v1
  let main_c : IVec S_ 1 := constantI S_ 1 1#1
  let main_v3 : IVec S_ 1 := (fun x v => Host.reduce IntOp.andi x v reducesTo_S1024x50_S_d0_1 h_S_) main_v2 main_c
  let main_v4 : FVec F S4096x64 .f32 := Host.absf main_arg3
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16384x64 .f32 := Host.absf main_arg4
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S1024 : Shape := ⟨1, ![1024]⟩
abbrev S1024x50 : Shape := ⟨2, ![1024, 50]⟩
abbrev S4096x64 : Shape := ⟨2, ![4096, 64]⟩
abbrev S16384x64 : Shape := ⟨2, ![16384, 64]⟩
abbrev S1024x1 : Shape := ⟨2, ![1024, 1]⟩
abbrev S_ : Shape := ⟨0, ![]⟩
abbrev S4096x16384 : Shape := ⟨2, ![4096, 16384]⟩
abbrev S1024x50x1 : Shape := ⟨3, ![1024, 50, 1]⟩
abbrev S1024x50x2 : Shape := ⟨3, ![1024, 50, 2]⟩
abbrev S512x64 : Shape := ⟨2, ![512, 64]⟩
abbrev S2048x64 : Shape := ⟨2, ![2048, 64]⟩
abbrev S512x2048 : Shape := ⟨2, ![512, 2048]⟩

abbrev nBuf : Space → Nat
  | .hbm => 58
  | .vmem => 8
  | .smem => 0
  | _ => 0

abbrev bufTy : (tb : Table) → Fin (tcTables nBuf tb) → BufTy
  | .hbm, ⟨0, _⟩ => ⟨S1024, .i32⟩
  | .hbm, ⟨1, _⟩ => ⟨S1024x50, .i32⟩
  | .hbm, ⟨2, _⟩ => ⟨S1024x50, .f32⟩
  | .hbm, ⟨3, _⟩ => ⟨S4096x64, .f32⟩
  | .hbm, ⟨4, _⟩ => ⟨S16384x64, .f32⟩
  | .hbm, ⟨5, _⟩ => ⟨S1024x1, .i32⟩
  | .hbm, ⟨6, _⟩ => ⟨S_, .bf16⟩
  | .hbm, ⟨7, _⟩ => ⟨S4096x16384, .bf16⟩
  | .hbm, ⟨8, _⟩ => ⟨S_, .i32⟩
  | .hbm, ⟨9, _⟩ => ⟨S1024x1, .i32⟩
  | .hbm, ⟨10, _⟩ => ⟨S1024x1, .i1⟩
  | .hbm, ⟨11, _⟩ => ⟨S_, .i32⟩
  | .hbm, ⟨12, _⟩ => ⟨S1024x1, .i32⟩
  | .hbm, ⟨13, _⟩ => ⟨S1024x1, .i32⟩
  | .hbm, ⟨14, _⟩ => ⟨S1024x1, .i32⟩
  | .hbm, ⟨15, _⟩ => ⟨S_, .i32⟩
  | .hbm, ⟨16, _⟩ => ⟨S1024x50, .i32⟩
  | .hbm, ⟨17, _⟩ => ⟨S1024x50, .i1⟩
  | .hbm, ⟨18, _⟩ => ⟨S_, .i32⟩
  | .hbm, ⟨19, _⟩ => ⟨S1024x50, .i32⟩
  | .hbm, ⟨20, _⟩ => ⟨S1024x50, .i32⟩
  | .hbm, ⟨21, _⟩ => ⟨S1024x50, .i32⟩
  | .hbm, ⟨22, _⟩ => ⟨S1024x50, .i32⟩
  | .hbm, ⟨23, _⟩ => ⟨S1024x50x1, .i32⟩
  | .hbm, ⟨24, _⟩ => ⟨S1024x50x1, .i32⟩
  | .hbm, ⟨25, _⟩ => ⟨S1024x50x2, .i32⟩
  | .hbm, ⟨26, _⟩ => ⟨S_, .bf16⟩
  | .hbm, ⟨27, _⟩ => ⟨S1024x50, .bf16⟩
  | .hbm, ⟨28, _⟩ => ⟨S4096x16384, .bf16⟩
  | .hbm, ⟨29, _⟩ => ⟨S_, .f32⟩
  | .hbm, ⟨30, _⟩ => ⟨S4096x16384, .f32⟩
  | .hbm, ⟨31, _⟩ => ⟨S_, .i32⟩
  | .hbm, ⟨32, _⟩ => ⟨S1024x1, .i32⟩
  | .hbm, ⟨33, _⟩ => ⟨S1024x1, .i1⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x1, .i32⟩
  | .hbm, ⟨38, _⟩ => ⟨S_, .i32⟩
  | .hbm, ⟨39, _⟩ => ⟨S1024x50, .i32⟩
  | .hbm, ⟨40, _⟩ => ⟨S1024x50, .i1⟩
  | .hbm, ⟨41, _⟩ => ⟨S_, .i32⟩
  | .hbm, ⟨42, _⟩ => ⟨S1024x50, .i32⟩
  | .hbm, ⟨43, _⟩ => ⟨S1024x50, .i32⟩
  | .hbm, ⟨44, _⟩ => ⟨S1024x50, .i32⟩
  | .hbm, ⟨45, _⟩ => ⟨S1024x50, .i32⟩
  | .hbm, ⟨46, _⟩ => ⟨S1024x50x1, .i32⟩
  | .hbm, ⟨47, _⟩ => ⟨S1024x50x1, .i32⟩
  | .hbm, ⟨48, _⟩ => ⟨S1024x50x2, .i32⟩
  | .hbm, ⟨49, _⟩ => ⟨S4096x16384, .f32⟩
  | .hbm, ⟨50, _⟩ => ⟨S4096x64, .bf16⟩
  | .hbm, ⟨51, _⟩ => ⟨S16384x64, .bf16⟩
  | .hbm, ⟨52, _⟩ => ⟨S4096x16384, .f32⟩
  | .hbm, ⟨53, _⟩ => ⟨S4096x16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x64, .bf16⟩
  | .local _ .vmem, ⟨1, _⟩ => ⟨S512x64, .bf16⟩
  | .local _ .vmem, ⟨2, _⟩ => ⟨S2048x64, .bf16⟩
  | .local _ .vmem, ⟨3, _⟩ => ⟨S2048x64, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S1024_S1024x1_0 : S1024.BroadcastsInDim S1024x1 (![0] : Fin 1 → Fin S1024x1.rank)
  bcast_S_S4096x16384 : S_.BroadcastsInDim S4096x16384 (![] : Fin 0 → Fin S4096x16384.rank)
  bcast_S_S1024x1 : S_.BroadcastsInDim S1024x1 (![] : Fin 0 → Fin S1024x1.rank)
  bcast_S_S1024x50 : S_.BroadcastsInDim S1024x50 (![] : Fin 0 → Fin S1024x50.rank)
  bcast_S1024x1_S1024x50_0_1 : S1024x1.BroadcastsInDim S1024x50 (![0, 1] : Fin 2 → Fin S1024x50.rank)
  bcast_S1024x50_S1024x50x1_0_1 : S1024x50.BroadcastsInDim S1024x50x1 (![0, 1] : Fin 2 → Fin S1024x50x1.rank)
  concatenates_S1024x50x1_S1024x50x1_S1024x50x2_d2 : Shape.Concatenates [S1024x50x1, S1024x50x1] S1024x50x2 2
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reducesTo_S4096x16384_S_d0_1 : S4096x16384.ReducesTo [0, 1] S_
  h_S_ : 0 < S_.numel
  scatter_S4096x16384_S1024x50x2_S1024x50_n_01_01_2_wf : ScatterDims.WF S4096x16384 S1024x50x2 S1024x50 [] [0, 1] [0, 1] 2
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .bf16 = 32 ∨ (Rect.block (s := S4096x64) S512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .bf16 = 32 ∨ (Rect.block (s := S16384x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x16384.size a
  hwx0_2 : ∀ i : grid0.Coords, EltTy.bits .bf16 = 32 ∨ (Rect.block (s := S4096x16384) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .f32 = 32 ∨ (Rect.block (s := S4096x16384) S512x2048.size (cc0_transform_3 i) (hinb0_3 i)).WholeWords (EltTy.packing .f32)

variable [Facts₀]

def scatter_S4096x16384_S1024x50x2_S1024x50_n_01_01_2 : ScatterDims S4096x16384 S1024x50x2 S1024x50 where
  updateWindowDims := []
  insertedWindowDims := [0, 1]
  scatterDimsToOperandDims := [0, 1]
  indexVectorDim := 2
  wf := scatter_S4096x16384_S1024x50x2_S1024x50_n_01_01_2_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_v34) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S1024x50 : Shape := ⟨2, ![1024, 50]⟩
abbrev S4096x64 : Shape := ⟨2, ![4096, 64]⟩
abbrev S16384x64 : Shape := ⟨2, ![16384, 64]⟩
abbrev S4096x16384 : Shape := ⟨2, ![4096, 16384]⟩
abbrev S1024x1 : Shape := ⟨2, ![1024, 1]⟩
abbrev S_ : Shape := ⟨0, ![]⟩
abbrev S1024x50x1 : Shape := ⟨3, ![1024, 50, 1]⟩
abbrev S1024x50x2 : Shape := ⟨3, ![1024, 50, 2]⟩

abbrev nBuf : Space → Nat
  | .hbm => 54
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x50, .i32⟩
  | .hbm, ⟨2, _⟩ => ⟨S1024x50, .f32⟩
  | .hbm, ⟨3, _⟩ => ⟨S4096x64, .f32⟩
  | .hbm, ⟨4, _⟩ => ⟨S16384x64, .f32⟩
  | .hbm, ⟨5, _⟩ => ⟨S4096x16384, .f32⟩
  | .hbm, ⟨6, _⟩ => ⟨S1024x1, .i32⟩
  | .hbm, ⟨7, _⟩ => ⟨S_, .f32⟩
  | .hbm, ⟨8, _⟩ => ⟨S4096x16384, .f32⟩
  | .hbm, ⟨9, _⟩ => ⟨S_, .i32⟩
  | .hbm, ⟨10, _⟩ => ⟨S1024x1, .i32⟩
  | .hbm, ⟨11, _⟩ => ⟨S1024x1, .i1⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S_, .i32⟩
  | .hbm, ⟨17, _⟩ => ⟨S1024x50, .i32⟩
  | .hbm, ⟨18, _⟩ => ⟨S1024x50, .i1⟩
  | .hbm, ⟨19, _⟩ => ⟨S_, .i32⟩
  | .hbm, ⟨20, _⟩ => ⟨S1024x50, .i32⟩
  | .hbm, ⟨21, _⟩ => ⟨S1024x50, .i32⟩
  | .hbm, ⟨22, _⟩ => ⟨S1024x50, .i32⟩
  | .hbm, ⟨23, _⟩ => ⟨S1024x50, .i32⟩
  | .hbm, ⟨24, _⟩ => ⟨S1024x50x1, .i32⟩
  | .hbm, ⟨25, _⟩ => ⟨S1024x50x1, .i32⟩
  | .hbm, ⟨26, _⟩ => ⟨S1024x50x2, .i32⟩
  | .hbm, ⟨27, _⟩ => ⟨S_, .f32⟩
  | .hbm, ⟨28, _⟩ => ⟨S1024x50, .f32⟩
  | .hbm, ⟨29, _⟩ => ⟨S4096x16384, .f32⟩
  | .hbm, ⟨30, _⟩ => ⟨S_, .i32⟩
  | .hbm, ⟨31, _⟩ => ⟨S1024x1, .i32⟩
  | .hbm, ⟨32, _⟩ => ⟨S1024x1, .i1⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S1024x1, .i32⟩
  | .hbm, ⟨37, _⟩ => ⟨S_, .i32⟩
  | .hbm, ⟨38, _⟩ => ⟨S1024x50, .i32⟩
  | .hbm, ⟨39, _⟩ => ⟨S1024x50, .i1⟩
  | .hbm, ⟨40, _⟩ => ⟨S_, .i32⟩
  | .hbm, ⟨41, _⟩ => ⟨S1024x50, .i32⟩
  | .hbm, ⟨42, _⟩ => ⟨S1024x50, .i32⟩
  | .hbm, ⟨43, _⟩ => ⟨S1024x50, .i32⟩
  | .hbm, ⟨44, _⟩ => ⟨S1024x50, .i32⟩
  | .hbm, ⟨45, _⟩ => ⟨S1024x50x1, .i32⟩
  | .hbm, ⟨46, _⟩ => ⟨S1024x50x1, .i32⟩
  | .hbm, ⟨47, _⟩ => ⟨S1024x50x2, .i32⟩
  | .hbm, ⟨48, _⟩ => ⟨S4096x16384, .f32⟩
  | .hbm, ⟨49, _⟩ => ⟨S4096x16384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S4096x16384 : S_.BroadcastsInDim S4096x16384 (![] : Fin 0 → Fin S4096x16384.rank)
  bcast_S_S1024x1 : S_.BroadcastsInDim S1024x1 (![] : Fin 0 → Fin S1024x1.rank)
  bcast_S_S1024x50 : S_.BroadcastsInDim S1024x50 (![] : Fin 0 → Fin S1024x50.rank)
  bcast_S1024x1_S1024x50_0_1 : S1024x1.BroadcastsInDim S1024x50 (![0, 1] : Fin 2 → Fin S1024x50.rank)
  bcast_S1024x50_S1024x50x1_0_1 : S1024x50.BroadcastsInDim S1024x50x1 (![0, 1] : Fin 2 → Fin S1024x50x1.rank)
  concatenates_S1024x50x1_S1024x50x1_S1024x50x2_d2 : Shape.Concatenates [S1024x50x1, S1024x50x1] S1024x50x2 2
  reducesTo_S4096x16384_S_d0_1 : S4096x16384.ReducesTo [0, 1] S_
  h_S_ : 0 < S_.numel
  dot_S4096x64_S16384x64_S4096x16384_1_1_0_0_n_n_wf : DotDims.WF S4096x64 S16384x64 S4096x16384 [1] [1] [0] [0] [] []
  scatter_S4096x16384_S1024x50x2_S1024x50_n_01_01_2_wf : ScatterDims.WF S4096x16384 S1024x50x2 S1024x50 [] [0, 1] [0, 1] 2

variable [Facts₀]

def dot_S4096x64_S16384x64_S4096x16384_1_1_0_0_n_n : DotDims S4096x64 S16384x64 S4096x16384 where
  lhsContracting := [1]
  rhsContracting := [1]
  lhsNonContracting := [0]
  rhsNonContracting := [0]
  lhsBatch := []
  rhsBatch := []
  wf := dot_S4096x64_S16384x64_S4096x16384_1_1_0_0_n_n_wf
def scatter_S4096x16384_S1024x50x2_S1024x50_n_01_01_2 : ScatterDims S4096x16384 S1024x50x2 S1024x50 where
  updateWindowDims := []
  insertedWindowDims := [0, 1]
  scatterDimsToOperandDims := [0, 1]
  indexVectorDim := 2
  wf := scatter_S4096x16384_S1024x50x2_S1024x50_n_01_01_2_wf

class Facts : Prop extends Facts₀ where

variable [Facts]
-- ==== Proof.TileProduct.lean ====
/-
  One tile of the masked prediction, read entry by entry.

  At a grid point the body holds a tile `u` of 512 user rows, a tile `v` of 2048 item rows (each row
  64 hidden coordinates) and the matching 512 × 2048 tile `w` of the rating mask. It contracts the
  hidden axis of `u` against the hidden axis of `v` into a zero accumulator and multiplies by the
  mask tile, so the entry at row `p`, column `q` of what it stores is

      (∑ k < 64, u[p, k] · v[q, k]) · w[p, q]

  over the extended reals: the product has no rounding there and the change of float format of the
  mask tile is the identity.
-/
import proofs.«159054_j78434692759804_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe

/-- The entry of the user tile that output entry `y` meets at hidden coordinate `k`: row `y 0`. -/
abbrev userAt (y : S512x2048.Idx) (k : Fin 64) : S512x64.Idx := fun a => match a with
  | ⟨0, _⟩ => ⟨(y 0).val, (y 0).isLt⟩
  | ⟨1, _⟩ => ⟨k.val, k.isLt⟩

/-- The entry of the item tile that output entry `y` meets at hidden coordinate `k`: row `y 1`. -/
abbrev itemAt (y : S512x2048.Idx) (k : Fin 64) : S2048x64.Idx := fun a => match a with
  | ⟨0, _⟩ => ⟨(y 1).val, (y 1).isLt⟩
  | ⟨1, _⟩ => ⟨k.val, k.isLt⟩

/-- The left operand's free axis carries the output's row. -/
theorem lhs_row (y : S512x2048.Idx) (q : dot_S512x64_S2048x64_S512x2048_1_1_0_0_n_n.contr.Idx) :
    (dot_S512x64_S2048x64_S512x2048_1_1_0_0_n_n.lhsIdx y q 0).val = (y 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

/-- The left operand's contracted axis carries the summation index. -/
theorem lhs_hidden (y : S512x2048.Idx) (q : dot_S512x64_S2048x64_S512x2048_1_1_0_0_n_n.contr.Idx) :
    (dot_S512x64_S2048x64_S512x2048_1_1_0_0_n_n.lhsIdx y q 1).val = (q ⟨0, by decide⟩).val :=
  dot_S512x64_S2048x64_S512x2048_1_1_0_0_n_n.lhsIdx_val_of_single rfl y q

/-- The right operand's free axis carries the output's column. -/
theorem rhs_row (y : S512x2048.Idx) (q : dot_S512x64_S2048x64_S512x2048_1_1_0_0_n_n.contr.Idx) :
    (dot_S512x64_S2048x64_S512x2048_1_1_0_0_n_n.rhsIdx y q 0).val = (y 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- The right operand's contracted axis carries the summation index. -/
theorem rhs_hidden (y : S512x2048.Idx) (q : dot_S512x64_S2048x64_S512x2048_1_1_0_0_n_n.contr.Idx) :
    (dot_S512x64_S2048x64_S512x2048_1_1_0_0_n_n.rhsIdx y q 1).val = (q ⟨0, by decide⟩).val :=
  dot_S512x64_S2048x64_S512x2048_1_1_0_0_n_n.rhsIdx_val_of_single rfl y q

/-- The contraction into a zero accumulator, at an entry: the sum over the 64 hidden coordinates of the
    products of the two rows' entries. -/
theorem product_apply (u : FVec Ideal S512x64 .bf16) (v : FVec Ideal S2048x64 .bf16) (y : S512x2048.Idx) :
    matmul dot_S512x64_S2048x64_S512x2048_1_1_0_0_n_n none u v (constant S512x2048 .f32 0x00000000#32) y
      = ∑ k : Fin 64, u (userAt y k) * v (itemAt y k) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx y ((ValueIdx.contrEquiv1 dot_S512x64_S2048x64_S512x2048_1_1_0_0_n_n 64 rfl rfl).symm k) = userAt y k := funext fun a => Fin.ext (by
    match a with
    | ⟨0, _⟩ => exact lhs_row _ _
    | ⟨1, _⟩ => exact (lhs_hidden _ _).trans hk)
  have er : dot_S512x64_S2048x64_S512x2048_1_1_0_0_n_n.rhsIdx y ((ValueIdx.contrEquiv1 dot_S512x64_S2048x64_S512x2048_1_1_0_0_n_n 64 rfl rfl).symm k) = itemAt y k := funext fun a => Fin.ext (by
    match a with
    | ⟨0, _⟩ => exact rhs_row _ _
    | ⟨1, _⟩ => exact (rhs_hidden _ _).trans hk)
  rw [el, er]

/-- What the body stores, at an entry: the rows' contraction times the mask entry. -/
theorem stored_apply (u : Vec Ideal S512x64 .bf16) (v : Vec Ideal S2048x64 .bf16) (w : Vec Ideal S512x2048 .bf16)
    (y : S512x2048.Idx) :
    k0_pay1 (F := Ideal) u v w y = (∑ k : Fin 64, u (userAt y k) * v (itemAt y k)) * w y := by
  unfold k0_pay1
  rw [ValueIdx.mulf_apply, shapeCast_self, shapeCast_self, shapeCast_self, product_apply, ValueIdx.extf_apply]

end Cert.KernelIdeal.Tile

end
-- ==== Proof.MaskLiterals.lean ====
/-
  The two float literals of the rating mask, read as extended reals.

  The kernel builds its mask in a 16-bit format (a zero background, ones scattered in) and the
  reference builds the same mask in the 32-bit format. An extended real has no format: the 16-bit
  pattern of zero and the 32-bit pattern of zero both denote `0`, and the two patterns of one both
  denote `1`. So a splat of either literal is the same array of extended reals in both programs.
-/
import Idealize.ShloMosaic.PureOps.Ideal
import Idealize.ShloMosaic.PureOps.Ideal.Laws
import Idealize.ShloMosaic.Lib.ValueIdx

noncomputable section

namespace Cert.MaskLiterals

open Idealize.ShloMosaic

/-- The 16-bit pattern of `+0.0` denotes `0`. -/
theorem zero16 : Ideal.ofBits .bf16 0x0000#16 = 0 := by
  simp [Ideal.ofBits, Ideal.ieee]

/-- The 16-bit pattern of `1.0` (exponent at the bias, no fraction) denotes `1`. -/
theorem one16 : Ideal.ofBits .bf16 0x3F80#16 = 1 := by
  simp [Ideal.ofBits, Ideal.ieee, -EReal.coe_mul]; norm_num

/-- The 32-bit pattern of `1.0` denotes `1`. -/
theorem one32 : Ideal.ofBits .f32 0x3F800000#32 = 1 := by
  simp [Ideal.ofBits, Ideal.ieee, -EReal.coe_mul]; norm_num

/-- A splat of the 16-bit zero is the splat of the 32-bit zero: both are the array of `0`s. -/
theorem splat_zero (s : Shape) :
    (constant (F := Ideal) s .bf16 0x0000#16 : s.Idx → EReal) = constant (F := Ideal) s .f32 0x00000000#32 :=
  funext fun _ => zero16.trans Ideal.ofBits_zero_f32.symm

/-- A splat of the 16-bit one is the splat of the 32-bit one: both are the array of `1`s. -/
theorem splat_one (s : Shape) :
    (constant (F := Ideal) s .bf16 0x3F80#16 : s.Idx → EReal) = constant (F := Ideal) s .f32 0x3F800000#32 :=
  funext fun _ => one16.trans one32.symm

end Cert.MaskLiterals

end
-- ==== Proof.EntryArrays.lean ====
/-
  What the region finds in the arrays the host lines before it wrote.

  Before the region the program narrows the two embedding tables to a 16-bit format, scatters ones
  into a zero background to make the rating mask, and scatters the ratings into a zero background to
  make the label array. Over the extended reals a change of float format is the identity, so the
  narrowed tables ARE the argument tables; the mask is the reference's mask (the same scatter of the
  same index pairs, the literals `0` and `1` denoting the same numbers in either format); and the
  label array is the reference's label array, operation for operation.
-/
import proofs.«159054_j78434692759804_1_alg».proof.Proof.Gen.KernelIdeal.Frame
import proofs.«159054_j78434692759804_1_alg».proof.Proof.Gen.ReferenceIdeal.Read
import proofs.«159054_j78434692759804_1_alg».proof.Proof.MaskLiterals
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The narrowed user table is the user table. -/
theorem users (c : Dev nD) :
    (V m c main_v34 : S4096x64.Idx → EReal) = m ((c : Thread nD τ).loc main_arg3) := by
  show StableHlo.after hostOps0 (fun b => m (c, b)) (Proc.devRef .tc main_v34) = _
  after_results
  rfl

/-- The narrowed item table is the item table. -/
theorem items (c : Dev nD) :
    (V m c main_v35 : S16384x64.Idx → EReal) = m ((c : Thread nD τ).loc main_arg4) := by
  show StableHlo.after hostOps0 (fun b => m (c, b)) (Proc.devRef .tc main_v35) = _
  after_results
  rfl

/-- The 16-bit mask is the reference's mask: ones at the scattered (user, item) pairs, zeros elsewhere. -/
theorem mask (c : Dev nD) :
    (V m c main_v17 : S4096x16384.Idx → EReal)
      = Cert.ReferenceIdeal.Read.val_main_v18 (F := Ideal) (m ((c : Thread nD τ).loc main_arg0)) (m ((c : Thread nD τ).loc main_arg1)) := by
  show StableHlo.after hostOps0 (fun b => m (c, b)) (Proc.devRef .tc main_v17) = _
  after_results_simp
  rw [Cert.MaskLiterals.splat_zero, Cert.MaskLiterals.splat_one]
  rfl

/-- The label array is the reference's label array: the ratings at the scattered pairs, zeros elsewhere. -/
theorem labels (c : Dev nD) :
    (V m c main_v33 : S4096x16384.Idx → EReal)
      = Cert.ReferenceIdeal.Read.val_main_v33 (F := Ideal) (m ((c : Thread nD τ).loc main_arg0)) (m ((c : Thread nD τ).loc main_arg1))
          (m ((c : Thread nD τ).loc main_arg2)) := by
  show StableHlo.after hostOps0 (fun b => m (c, b)) (Proc.devRef .tc main_v33) = _
  after_results_simp
  rfl

end Cert.KernelIdeal.Entry

end
-- ==== Proof.MaskedPrediction.lean ====
/-
  The masked prediction array after the run.

  The region walks an 8 × 8 grid. At the point with coordinates (a, b) it reads user rows
  512·a … 512·a + 511, item rows 2048·b … 2048·b + 2047 and the mask tile at block (a, b), and writes
  back block (a, b) of the output. By the tile formula the entry it writes at global position (r, s) is

      (∑ k < 64, U[r, k] · I[s, k]) · M[r, s]

  where `U`, `I` are the two embedding tables and `M` the mask: the reference's product of its
  `dot_general` with its mask, at (r, s). The sixty-four blocks tile the 4096 × 16384 array (block
  (r / 512, s / 2048) holds position (r, s)), so the whole array ends as the reference's.
-/
import proofs.«159054_j78434692759804_1_alg».proof.Proof.Gen.KernelIdeal.Frame
import proofs.«159054_j78434692759804_1_alg».proof.Proof.Gen.ReferenceIdeal.Read
import proofs.«159054_j78434692759804_1_alg».proof.Proof.TileProduct
import proofs.«159054_j78434692759804_1_alg».proof.Proof.EntryArrays
import Idealize.ShloMosaic.Lib.Pipeline.Value

set_option maxRecDepth 16384

noncomputable section

namespace Cert.KernelIdeal.Prediction

open Cert.KernelIdeal Cert.KernelIdeal.Gen Idealize.ShloMosaic Idealize.ShloMosaic.TcCoe Idealize.SL.Sem
open Idealize.ShloMosaic.Pipeline (Dat)

/-- A tile entry against the whole arrays: if row `y 0` of the user tile is row `i 0` of the user table,
    row `y 1` of the item tile is row `i 1` of the item table, and the mask tile's entry `y` is the mask's
    entry `i`, then what the body stores at `y` is the reference's product-times-mask at `i`. -/
theorem stored_eq (U : S4096x64.Idx → EReal) (I : S16384x64.Idx → EReal) (M : S4096x16384.Idx → EReal)
    (u : S512x64.Idx → EReal) (v : S2048x64.Idx → EReal) (w : S512x2048.Idx → EReal)
    (y : S512x2048.Idx) (i : S4096x16384.Idx)
    (hu : ∀ k : Fin 64, u (Tile.userAt y k) = U (Cert.ReferenceIdeal.Read.lidx_main_v0 i k))
    (hv : ∀ k : Fin 64, v (Tile.itemAt y k) = I (Cert.ReferenceIdeal.Read.ridx_main_v0 i k))
    (hw : w y = M i) :
    k0_pay1 (F := Ideal) u v w y = mulf (Cert.ReferenceIdeal.Read.val_main_v0 (F := Ideal) U I) M i := by
  rw [Tile.stored_apply, ValueIdx.mulf_apply, Cert.ReferenceIdeal.Read.val_main_v0_apply, hw]
  exact congrArg (· * M i) (Finset.sum_congr rfl fun k _ => by rw [hu k, hv k])

variable (m : (ℓ : Loc nD τ sig) → Buf (Elt Ideal) ℓ)

theorem origin : (![0, 0] : Fin 2 → Nat) = fun _ => 0 := funext fun a => by fin_cases a <;> rfl

/-- The printed index maps, decided over the sixty-four points: the user tile moves with the output's row
    block, the item tile with its column block, the mask tile with both; neither table is blocked along the
    hidden axis; and the output's block indices stay below eight. -/
theorem tiles : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 blocks is some point's. -/
theorem tile_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-- WHAT POINT `t` WRITES BACK is block `t` of the reference's masked prediction of the arguments. -/
theorem written (c : Dev nD) (t : Fin cfg0.N) :
    (dats m 0 c).flushed 3 t = ((cfg0.win 3).blk t).view.read (Elt Ideal)
      (Cert.ReferenceIdeal.Read.val_main_v34 (F := Ideal) (m ((c : Thread nD τ).loc main_arg0)) (m ((c : Thread nD τ).loc main_arg1))
        (m ((c : Thread nD τ).loc main_arg3)) (m ((c : Thread nD τ).loc main_arg4))) := by
  show (cfg0.win 3).cut (grid0.coords t) ((dats m 0 c).after 3 t) = _
  rw [after0_3]
  unfold out0_3
  rw [View.canon_unit_zero origin]
  simp only [View.ld_unit_zero (S := S512x64) origin, View.ld_unit_zero (S := S2048x64) origin, View.ld_unit_zero (S := S512x2048) origin]
  obtain ⟨e0, e1, e2, e3, e4, e5, e6, e7⟩ := tiles t
  funext y
  refine stored_eq (m ((c : Thread nD τ).loc main_arg3)) (m ((c : Thread nD τ).loc main_arg4))
    (Cert.ReferenceIdeal.Read.val_main_v18 (F := Ideal) (m ((c : Thread nD τ).loc main_arg0)) (m ((c : Thread nD τ).loc main_arg1)))
    (iblk m c 0 t) (iblk m c 1 t) (iblk m c 2 t) y (((cfg0.win 3).blk t).view.emb y) ?_ ?_ ?_
  · intro k
    have hidx : ((cfg0.win 0).blk t).view.emb (Tile.userAt y k)
        = Cert.ReferenceIdeal.Read.lidx_main_v0 (((cfg0.win 3).blk t).view.emb y) k := by
      funext a; apply Fin.ext
      match a with
      | ⟨0, _⟩ => show win0_0.index t (0 : Fin 2) * 512 + 1 * (y 0).val = win0_3.index t (0 : Fin 2) * 512 + 1 * (y 0).val; omega
      | ⟨1, _⟩ => show win0_0.index t (1 : Fin 2) * 64 + 1 * k.val = k.val; omega
    show V m c main_v34 (((cfg0.win 0).blk t).view.emb (Tile.userAt y k)) = _
    rw [hidx]
    exact congrFun (Entry.users m c) _
  · intro k
    have hidx : ((cfg0.win 1).blk t).view.emb (Tile.itemAt y k)
        = Cert.ReferenceIdeal.Read.ridx_main_v0 (((cfg0.win 3).blk t).view.emb y) k := by
      funext a; apply Fin.ext
      match a with
      | ⟨0, _⟩ => show win0_1.index t (0 : Fin 2) * 2048 + 1 * (y 1).val = win0_3.index t (1 : Fin 2) * 2048 + 1 * (y 1).val; omega
      | ⟨1, _⟩ => show win0_1.index t (1 : Fin 2) * 64 + 1 * k.val = k.val; omega
    show V m c main_v35 (((cfg0.win 1).blk t).view.emb (Tile.itemAt y k)) = _
    rw [hidx]
    exact congrFun (Entry.items m c) _
  · have hidx : ((cfg0.win 2).blk t).view.emb y = ((cfg0.win 3).blk t).view.emb y := by
      funext a; apply Fin.ext
      match a with
      | ⟨0, _⟩ => show win0_2.index t (0 : Fin 2) * 512 + 1 * (y 0).val = win0_3.index t (0 : Fin 2) * 512 + 1 * (y 0).val; omega
      | ⟨1, _⟩ => show win0_2.index t (1 : Fin 2) * 2048 + 1 * (y 1).val = win0_3.index t (1 : Fin 2) * 2048 + 1 * (y 1).val; omega
    show V m c main_v17 (((cfg0.win 2).blk t).view.emb y) = _
    rw [hidx]
    exact congrFun (Entry.mask m c) _

/-- An index of the array is in point `t`'s block iff each coordinate is in the block's range on its axis. -/
theorem mem_tile (t : Fin cfg0.N) (i : S4096x16384.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v36).slice (win0_3.rect t)).set ↔ _
  rw [View.set_slice_whole, Rect.mem_set_unit]
  exact Iff.rfl

/-- Position (r, s) lies in the block of the point whose block indices are (r / 512, s / 2048). -/
theorem covered (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := tile_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE ARRAY after the run is the reference's masked prediction of the arguments. -/
theorem final (c : Dev nD) :
    (dats m 0 c).arrAt 3 cfg0.N
      = Cert.ReferenceIdeal.Read.val_main_v34 (F := Ideal) (m ((c : Thread nD τ).loc main_arg0)) (m ((c : Thread nD τ).loc main_arg1))
          (m ((c : Thread nD τ).loc main_arg3)) (m ((c : Thread nD τ).loc main_arg4)) :=
  (dats m 0 c).arrAt_eq_of_cover 3 _ (fun t _ => written m c t) covered

end Cert.KernelIdeal.Prediction

end
-- ==== Proof.AfterRegion.lean ====
/-
  The two results that do not come out of the region.

  The label array is written before the region and nothing touches it afterwards: the region does not
  stage it and none of the five lines after the region writes it, so it ends as the reference's label
  array.

  The sparsity scalar is computed after the region from the mask: the mask is one of the region's INPUT
  arrays, which the region only reads, so after the region it still holds the reference's mask; the
  lines after the region widen it (the identity over the extended reals), sum all its entries from zero
  and divide 2^26 by the sum — the reference's last three lines, applied to the same mask.
-/
import proofs.«159054_j78434692759804_1_alg».proof.Proof.Gen.KernelIdeal.Frame
import proofs.«159054_j78434692759804_1_alg».proof.Proof.Gen.ReferenceIdeal.Read
import proofs.«159054_j78434692759804_1_alg».proof.Proof.EntryArrays
import Idealize.ShloMosaic.Lib.StableHlo.Run
import Idealize.ShloMosaic.Lib.Pipeline.Value

set_option maxRecDepth 16384

noncomputable section

namespace Cert.KernelIdeal.AfterRegion

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The mask array leaves the region as it entered it: it is the third input window's array, never written
    back, so after the last point it still holds the reference's mask. -/
theorem mask_kept (c : Dev nD) :
    Pipeline.withArrays (cfgs 0).spec c (V0 m c) (fun w => (dats m 0 c).arrAt w (cfgs 0).N) (Proc.devRef .tc main_v17)
      = Cert.ReferenceIdeal.Read.val_main_v18 (F := Ideal) (m ((c : Thread nD τ).loc main_arg0)) (m ((c : Thread nD τ).loc main_arg1)) :=
  ((Pipeline.withArrays_arr spec0 launch0.win.arr_inj c _ _ 2).trans ((dats m 0 c).arrAt_in 2 rfl _)).trans
    ((A_eq m c 2).trans (Entry.mask m c))

/-- Widening a 16-bit array to the 32-bit format changes no entry: an extended real has no format. -/
theorem widen_id {s : Shape} (X : FVec Ideal s .bf16) (h : FTy.bf16.bits < FTy.f32.bits) :
    (extf (F := Ideal) .f32 X h : s.Idx → EReal) = X := rfl

/-- The sparsity scalar: 2^26 divided by the sum of the mask's entries, as in the reference. -/
theorem sparsity (c : Dev nD) :
    Pipeline.afterTail₀ cfgs (dats m) 0 (V0 m) [hostOps1] c main_v39
      = Cert.ReferenceIdeal.Read.val_main_v36 (F := Ideal) (m ((c : Thread nD τ).loc main_arg0)) (m ((c : Thread nD τ).loc main_arg1)) := by
  unfold Pipeline.afterTail₀
  show StableHlo.after hostOps1 _ (Proc.devRef .tc main_v39) = _
  after_results
  rw [widen_id, mask_kept]
  unfold Cert.ReferenceIdeal.Read.val_main_v36 Cert.ReferenceIdeal.Read.val_main_v35 Cert.ReferenceIdeal.Read.val_main_cst_9
    Cert.ReferenceIdeal.Read.val_main_cst_8
  rfl

/-- The label array passes the region and the lines after it untouched. -/
theorem labels (c : Dev nD) :
    Pipeline.afterTail₀ cfgs (dats m) 0 (V0 m) [hostOps1] c main_v33
      = Cert.ReferenceIdeal.Read.val_main_v33 (F := Ideal) (m ((c : Thread nD τ).loc main_arg0)) (m ((c : Thread nD τ).loc main_arg1))
          (m ((c : Thread nD τ).loc main_arg2)) := by
  unfold Pipeline.afterTail₀
  show StableHlo.after hostOps1 _ (Proc.devRef .tc main_v33) = _
  after_results
  rw [Pipeline.withArrays_of_ne _ c (V0 m c) _ main_v33 (by exact (by decide : ∀ w, Pipeline.arrRef spec0 w ≠ main_v33))]
  exact Entry.labels m c

end Cert.KernelIdeal.AfterRegion

end
-- ==== Proof.KernelResults.lean ====
/-
  The idealized kernel's run, with each of its three results named.

  Every weakly fair execution terminates; the masked prediction (the region's output array) ends as the
  reference's product-times-mask of the arguments, the label array as the reference's scatter of the
  ratings, the sparsity scalar as the reference's 2^26 over the mask's sum; the arguments are unchanged.
-/
import proofs.«159054_j78434692759804_1_alg».proof.Proof.Gen.KernelIdeal.Frame
import proofs.«159054_j78434692759804_1_alg».proof.Proof.Gen.ReferenceIdeal.Read
import proofs.«159054_j78434692759804_1_alg».proof.Proof.MaskedPrediction
import proofs.«159054_j78434692759804_1_alg».proof.Proof.AfterRegion

set_option maxRecDepth 16384

noncomputable section

namespace Cert.KernelIdeal.Results

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The frame run re-posted: the output array by the tiling argument, the two host-side results read through the
    buffers that bypass the region, each argument as launched. -/
theorem run : θ_run defs (onTc (τ := τ) (main (F := Ideal))) ⟨m, fun _ => 0, ρ⟩ fun r => ∀ c : Dev nD,
      r.2.mem ((c : Thread nD τ).loc main_v36)
        = Cert.ReferenceIdeal.Read.val_main_v34 (F := Ideal) (m ((c : Thread nD τ).loc main_arg0)) (m ((c : Thread nD τ).loc main_arg1)) (m ((c : Thread nD τ).loc main_arg3)) (m ((c : Thread nD τ).loc main_arg4))
      ∧ r.2.mem ((c : Thread nD τ).loc main_v33)
        = Cert.ReferenceIdeal.Read.val_main_v33 (F := Ideal) (m ((c : Thread nD τ).loc main_arg0)) (m ((c : Thread nD τ).loc main_arg1)) (m ((c : Thread nD τ).loc main_arg2))
      ∧ r.2.mem ((c : Thread nD τ).loc main_v39)
        = Cert.ReferenceIdeal.Read.val_main_v36 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 3).trans (Prediction.final m c),
      ((h c).2 main_v33 (Pipeline.mem_restRefs_of main_v33 (by decide) (by decide))).trans (AfterRegion.labels m c),
      ((h c).2 main_v39 (Pipeline.mem_restRefs_of main_v39 (by decide) (by decide))).trans (AfterRegion.sparsity m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Results

end
-- ==== Proof.lean ====
/-
  A recommender's masked prediction, its label array and its sparsity, kernel against reference.

  Both programs take a batch of 1024 user indices, 1024 × 50 item indices with their ratings, a 4096 × 64
  user embedding table `U` and a 16384 × 64 item embedding table `I`, and return

    * the masked prediction  P[r, s] = (∑ k < 64, U[r, k] · I[s, k]) · M[r, s],
    * the label array        L = zeros with the ratings scattered in at the (user, item) pairs,
    * the sparsity           2^26 / ∑ M,

  where the mask `M` is zeros with ones scattered in at the same pairs. The reference computes `P` as one
  matrix product times `M`. The kernel narrows `U`, `I` and `M` to a 16-bit format, computes `P` tile by
  tile on an 8 × 8 grid (512 user rows against 2048 item rows per tile) and widens the mask again for the
  sum. Over the extended reals a change of format is the identity, a tile's contraction is the same finite
  sum as the whole product's at that position, and the sixty-four tiles fill the array; the index
  arithmetic and the two scatters are the same operations in both programs. So the three results agree
  entry by entry, with no appeal to the finiteness of the inputs.

  The two kernel frames are the generated frame certificates; the reference's frame is its generated run
  with the results dropped; the idealization rewrote nothing, so `preserves` is trivial.
-/
import proofs.«159054_j78434692759804_1_alg».proof.Defs
import proofs.«159054_j78434692759804_1_alg».proof.Proof.Gen.Kernel
import proofs.«159054_j78434692759804_1_alg».proof.Proof.Gen.Kernel.Skeleton
import proofs.«159054_j78434692759804_1_alg».proof.Proof.Gen.Kernel.Launch
import proofs.«159054_j78434692759804_1_alg».proof.Proof.Gen.Kernel.Points
import proofs.«159054_j78434692759804_1_alg».proof.Proof.Gen.Kernel.Frame
import proofs.«159054_j78434692759804_1_alg».proof.Proof.Gen.KernelIdeal
import proofs.«159054_j78434692759804_1_alg».proof.Proof.Gen.KernelIdeal.Skeleton
import proofs.«159054_j78434692759804_1_alg».proof.Proof.Gen.KernelIdeal.Launch
import proofs.«159054_j78434692759804_1_alg».proof.Proof.Gen.KernelIdeal.Points
import proofs.«159054_j78434692759804_1_alg».proof.Proof.Gen.KernelIdeal.Frame
import proofs.«159054_j78434692759804_1_alg».proof.Proof.Gen.ReferenceIdeal
import proofs.«159054_j78434692759804_1_alg».proof.Proof.Gen.Pre_finite_inputs
import proofs.«159054_j78434692759804_1_alg».proof.Proof.Gen.ReferenceIdeal.Run
import proofs.«159054_j78434692759804_1_alg».proof.Proof.Gen.ReferenceIdeal.Read
import proofs.«159054_j78434692759804_1_alg».proof.Proof.KernelResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and keeps its arguments: its generated run, the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the five arguments both programs end with the same three results: the
    kernel's run ends at the reference's own terms of the kernel's arguments, the reference's run at those terms
    of its own arguments, and the arguments agree. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h0, h1, h2, h3, h4⟩ := hagree c
  obtain ⟨r0, r1, r2, kept⟩ := h c
  refine ⟨r0.trans ?_, r1.trans ?_, r2.trans ?_, kept⟩
  · rw [Cert.ReferenceIdeal.Read.val_main_v34_eq, h0, h1, h3, h4]
  · rw [Cert.ReferenceIdeal.Read.val_main_v33_eq, h0, h1, h2]
  · rw [Cert.ReferenceIdeal.Read.val_main_v36_eq, h0, h1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
